-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x1x512 : Shape := ⟨3, ![256, 1, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x1x512 : S_.BroadcastsInDim S256x1x512 (![] : Fin 0 → Fin S256x1x512.rank)
  reducesTo_S256x1x512_S_d0_1_2 : S256x1x512.ReducesTo [0, 1, 2] S_

variable [Facts]

def fn {F : FTy → Type} [FloatOps F] (main_arg0 : FVec F S1024x512 .f32) (main_arg1 : FVec F S256x1x512 .f32) (main_arg2 : FVec F S256x1x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S256x1x512 .f32 := Host.absf main_arg1
  let main_cst_0 : FVec F S_ .f32 := constant S_ .f32 0x7F800000#32
  let main_v5 : FVec F S256x1x512 .f32 := broadcastInDim S256x1x512 ![] bcast_S_S256x1x512 main_cst_0
  let main_v6 : IVec S256x1x512 1 := cmpf .olt main_v4 main_v5
  let main_c_1 : IVec S_ 1 := constantI S_ 1 1#1
  let main_v7 : IVec S_ 1 := (fun x v => Host.reduce IntOp.andi x v reducesTo_S256x1x512_S_d0_1_2 h_S_) main_v6 main_c_1
  let main_v8 : IVec S_ 1 := andi main_v3 main_v7
  let main_v9 : FVec F S256x1x512 .f32 := Host.absf main_arg2
  let main_cst_2 : FVec F S_ .f32 := constant S_ .f32 0x7F800000#32
  let main_v10 : FVec F S256x1x512 .f32 := broadcastInDim S256x1x512 ![] bcast_S_S256x1x512 main_cst_2
  let main_v11 : IVec S256x1x512 1 := cmpf .olt main_v9 main_v10
  let main_c_3 : IVec S_ 1 := constantI S_ 1 1#1
  let main_v12 : IVec S_ 1 := (fun x v => Host.reduce IntOp.andi x v reducesTo_S256x1x512_S_d0_1_2 h_S_) main_v11 main_c_3
  let main_v13 : IVec S_ 1 := andi main_v8 main_v12
  main_v13
-- ==== Kernel.lean ====
abbrev S1024x512 : Shape := ⟨2, ![1024, 512]⟩
abbrev S256x1x512 : Shape := ⟨3, ![256, 1, 512]⟩
abbrev S256x512 : Shape := ⟨2, ![256, 512]⟩
abbrev S1024x256 : Shape := ⟨2, ![1024, 256]⟩
abbrev S128x512 : Shape := ⟨2, ![128, 512]⟩
abbrev S256x128 : Shape := ⟨2, ![256, 128]⟩
abbrev S256x1024 : Shape := ⟨2, ![256, 1024]⟩
abbrev S128x1024 : Shape := ⟨2, ![128, 1024]⟩
abbrev S1x512 : Shape := ⟨2, ![1, 512]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S1024x512, .f32⟩
  | .hbm, ⟨1, _⟩ => ⟨S256x1x512, .f32⟩
  | .hbm, ⟨2, _⟩ => ⟨S256x1x512, .f32⟩
  | .hbm, ⟨3, _⟩ => ⟨S256x512, .f32⟩
  | .hbm, ⟨4, _⟩ => ⟨S256x512, .f32⟩
  | .hbm, ⟨5, _⟩ => ⟨S1024x256, .f32⟩
  | .local _ .vmem, ⟨0, _⟩ => ⟨S256x512, .f32⟩
  | .local _ .vmem, ⟨1, _⟩ => ⟨S256x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S256x128, .f32⟩
  | .local _ .vmem, ⟨7, _⟩ => ⟨S256x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S256x1x512_S256x512 : S256x1x512.ShapeCasts S256x512
  inb_S256x512_S256x512_0_0 : ∀ a, (![0, 0] : Fin 2 → Nat) a + S256x512.size a ≤ S256x512.size a
  h_S256x512 : 0 < S256x512.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  bitsLt_bf16_f32 : FTy.bits .bf16 < FTy.bits .f32
  concatenates_S256x512_S256x512_S256x1024_d1 : Shape.Concatenates [S256x512, S256x512] S256x1024 1
  concatenates_S128x512_S128x512_S128x1024_d1 : Shape.Concatenates [S128x512, S128x512] S128x1024 1
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x1024_S128x1024_S256x128_1_1_0_0_n_n_wf : DotDims.WF S256x1024 S128x1024 S256x128 [1] [1] [0] [0] [] []
  dot_S1x512_S128x512_S1x128_1_1_0_0_n_n_wf : DotDims.WF S1x512 S128x512 S1x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S256x512.size a
  hwx0_1 : ∀ i : grid0.Coords, EltTy.bits .f32 = 32 ∨ (Rect.block (s := S256x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S256x512.size a
  hwx0_2 : ∀ i : grid0.Coords, EltTy.bits .f32 = 32 ∨ (Rect.block (s := S256x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S1024x256.size a
  hwx0_3 : ∀ i : grid0.Coords, EltTy.bits .f32 = 32 ∨ (Rect.block (s := S1024x256) S256x128.size (cc0_transform_3 i) (hinb0_3 i)).WholeWords (EltTy.packing .f32)

variable [Facts₀]

def dot_S256x1024_S128x1024_S256x128_1_1_0_0_n_n : DotDims S256x1024 S128x1024 S256x128 where
  lhsContracting := [1]
  rhsContracting := [1]
  lhsNonContracting := [0]
  rhsNonContracting := [0]
  lhsBatch := []
  rhsBatch := []
  wf := dot_S256x1024_S128x1024_S256x128_1_1_0_0_n_n_wf
def dot_S1x512_S128x512_S1x128_1_1_0_0_n_n : DotDims S1x512 S128x512 S1x128 where
  lhsContracting := [1]
  rhsContracting := [1]
  lhsNonContracting := [0]
  rhsNonContracting := [0]
  lhsBatch := []
  rhsBatch := []
  wf := dot_S1x512_S128x512_S1x128_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S256x1x512 : Shape := ⟨3, ![256, 1, 512]⟩
abbrev S1x1x1024x512 : Shape := ⟨4, ![1, 1, 1024, 512]⟩
abbrev S256x1x1x512 : Shape := ⟨4, ![256, 1, 1, 512]⟩
abbrev S256x1x1024x512 : Shape := ⟨4, ![256, 1, 1024, 512]⟩
abbrev S_ : Shape := ⟨0, ![]⟩
abbrev S256x1x1024 : Shape := ⟨3, ![256, 1, 1024]⟩
abbrev S256x1024 : Shape := ⟨2, ![256, 1024]⟩
abbrev S1024x256 : Shape := ⟨2, ![1024, 256]⟩
abbrev S1024x256x1 : Shape := ⟨3, ![1024, 256, 1]⟩

abbrev nBuf : Space → Nat
  | .hbm => 50
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S256x1x512, .f32⟩
  | .hbm, ⟨2, _⟩ => ⟨S256x1x512, .f32⟩
  | .hbm, ⟨3, _⟩ => ⟨S256x1x512, .f32⟩
  | .hbm, ⟨4, _⟩ => ⟨S256x1x512, .f32⟩
  | .hbm, ⟨5, _⟩ => ⟨S1x1x1024x512, .f32⟩
  | .hbm, ⟨6, _⟩ => ⟨S256x1x1x512, .f32⟩
  | .hbm, ⟨7, _⟩ => ⟨S256x1x1024x512, .f32⟩
  | .hbm, ⟨8, _⟩ => ⟨S256x1x1024x512, .f32⟩
  | .hbm, ⟨9, _⟩ => ⟨S256x1x1024x512, .f32⟩
  | .hbm, ⟨10, _⟩ => ⟨S256x1x1024x512, .f32⟩
  | .hbm, ⟨11, _⟩ => ⟨S256x1x512, .f32⟩
  | .hbm, ⟨12, _⟩ => ⟨S_, .f32⟩
  | .hbm, ⟨13, _⟩ => ⟨S256x1x512, .f32⟩
  | .hbm, ⟨14, _⟩ => ⟨S256x1x512, .f32⟩
  | .hbm, ⟨15, _⟩ => ⟨S256x1x1x512, .f32⟩
  | .hbm, ⟨16, _⟩ => ⟨S256x1x1024x512, .f32⟩
  | .hbm, ⟨17, _⟩ => ⟨S256x1x1024x512, .f32⟩
  | .hbm, ⟨18, _⟩ => ⟨S_, .f32⟩
  | .hbm, ⟨19, _⟩ => ⟨S256x1x1024, .f32⟩
  | .hbm, ⟨20, _⟩ => ⟨S_, .f32⟩
  | .hbm, ⟨21, _⟩ => ⟨S256x1x512, .f32⟩
  | .hbm, ⟨22, _⟩ => ⟨S256x1x512, .f32⟩
  | .hbm, ⟨23, _⟩ => ⟨S256x1x1x512, .f32⟩
  | .hbm, ⟨24, _⟩ => ⟨S256x1x1024x512, .f32⟩
  | .hbm, ⟨25, _⟩ => ⟨S256x1x1024x512, .f32⟩
  | .hbm, ⟨26, _⟩ => ⟨S_, .f32⟩
  | .hbm, ⟨27, _⟩ => ⟨S256x1x1024, .f32⟩
  | .hbm, ⟨28, _⟩ => ⟨S256x1x1024, .f32⟩
  | .hbm, ⟨29, _⟩ => ⟨S256x1x1024, .f32⟩
  | .hbm, ⟨30, _⟩ => ⟨S_, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S1024x256, .f32⟩
  | .hbm, ⟨42, _⟩ => ⟨S1024x256x1, .f32⟩
  | .hbm, ⟨43, _⟩ => ⟨S_, .f32⟩
  | .hbm, ⟨44, _⟩ => ⟨S1024x256, .f32⟩
  | .hbm, ⟨45, _⟩ => ⟨S1024x256, .i1⟩
  | .hbm, ⟨46, _⟩ => ⟨S1024x256, .f32⟩
  | .hbm, ⟨47, _⟩ => ⟨S1024x256x1, .f32⟩
  | .hbm, ⟨48, _⟩ => ⟨S1024x256x1, .f32⟩
  | .hbm, ⟨49, _⟩ => ⟨S1024x256, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]

class Facts₀ : Prop where
  bcast_S1024x512_S1x1x1024x512_2_3 : S1024x512.BroadcastsInDim S1x1x1024x512 (![2, 3] : Fin 2 → Fin S1x1x1024x512.rank)
  bcast_S256x1x512_S256x1x1x512_0_1_3 : S256x1x512.BroadcastsInDim S256x1x1x512 (![0, 1, 3] : Fin 3 → Fin S256x1x1x512.rank)
  bcast_S1x1x1024x512_S256x1x1024x512_0_1_2_3 : S1x1x1024x512.BroadcastsInDim S256x1x1024x512 (![0, 1, 2, 3] : Fin 4 → Fin S256x1x1024x512.rank)
  bcast_S256x1x1x512_S256x1x1024x512_0_1_2_3 : S256x1x1x512.BroadcastsInDim S256x1x1024x512 (![0, 1, 2, 3] : Fin 4 → Fin S256x1x1024x512.rank)
  bcast_S_S256x1x512 : S_.BroadcastsInDim S256x1x512 (![] : Fin 0 → Fin S256x1x512.rank)
  reducesTo_S256x1x1024x512_S256x1x1024_d3 : S256x1x1024x512.ReducesTo [3] S256x1x1024
  h_S_ : 0 < S_.numel
  reducesTo_S256x1x1024_S256x1024_d1 : S256x1x1024.ReducesTo [1] S256x1024
  bcast_S_S256x1024 : S_.BroadcastsInDim S256x1024 (![] : Fin 0 → Fin S256x1024.rank)
  transposes_S256x1024_S1024x256_1_0 : S256x1024.Transposes [1, 0] S1024x256
  transposes_S256x1x1024_S1024x256x1_2_0_1 : S256x1x1024.Transposes [2, 0, 1] S1024x256x1
  bcast_S_S1024x256 : S_.BroadcastsInDim S1024x256 (![] : Fin 0 → Fin S1024x256.rank)
  bcast_S1024x256_S1024x256x1_0_1 : S1024x256.BroadcastsInDim S1024x256x1 (![0, 1] : Fin 2 → Fin S1024x256x1.rank)
  shapeCasts_S1024x256x1_S1024x256 : S1024x256x1.ShapeCasts S1024x256

variable [Facts₀]

class Facts : Prop extends Facts₀ where

variable [Facts]
-- ==== Proof.FiniteInputs.lean ====
/-
  What the precondition says: every entry of the three argument arrays is a real number.

  The precondition is the conjunction of three tests, one per array: "every entry's absolute value is below
  `+∞`". On the extended reals `|x| = max x (-x)` is `+∞` exactly at the two infinities, so an entry passing the
  test is a real number. A conjunction that is 1 has both conjuncts 1, and an "all" that is 1 was 1 at every entry.
-/
import proofs.«131172_j85272280695302_2_alg».proof.Pre_finite_inputs
import proofs.«131172_j85272280695302_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Idealize.ShloMosaic.ValueIdx Cert.Pre_finite_inputs

/-- The scalar shape has one index. -/
instance : Subsingleton S_.Idx := ⟨fun _ _ => funext fun d => d.elim0⟩

/-- An extended real whose absolute value is below `+∞` is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  have hinf : Ideal.ofBits .f32 0x7F800000#32 = (⊤ : EReal) := by simp [Ideal.ofBits, Ideal.ieee]
  have h1 : BitVec.ofBool (decide (max x (-x) < Ideal.ofBits .f32 0x7F800000#32)) = 1#1 := h
  rw [hinf] at h1
  have h' : max x (-x) < (⊤ : EReal) := by
    by_contra hc
    rw [decide_eq_false hc] at h1
    exact absurd h1 (by decide)
  revert h'
  refine EReal.rec (motive := fun x => max x (-x) < (⊤ : EReal) → ∃ r : ℝ, x = r) ?_ ?_ ?_ x
  · intro h; simp at h
  · intro r _; exact ⟨r, rfl⟩
  · intro h; simp at h

/-- Under the precondition every entry of each of the three arrays is a real number. -/
theorem real_of_pre (a0 : FVec Ideal S1024x512 .f32) (a1 a2 : FVec Ideal S256x1x512 .f32)
    (h : Cert.Pre_finite_inputs.fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i)⟩

end Cert.FiniteInputs

end
-- ==== Proof.LibDenseRows.lean ====
/-
  A layer computed from weight rows, read at an index.

  A kernel may multiply a block of `K` item rows `[K, N]` by `Q` weight rows `[Q, N]` without transposing
  the weights: the matrix unit contracts the second axis of both operands. Into a zero accumulator, over the extended
  reals, entry `(p, q)` of the product is the plain sum `Σ n, X (p, n) * W (q, n)`; with a bias row `[1, Q]`
  laid along every row of the block added, it is that sum plus `bias (0, q)`. In particular column `q` of the
  result depends on row `q` of the weights and entry `q` of the bias only.
-/
import Idealize.ShloMosaic.Lib.ValueIdx
import Idealize.ShloMosaic.Lib.ValueLayout
import Idealize.ShloMosaic.PureOps.Ideal.Laws

noncomputable section

namespace Idealize.ShloMosaic.DenseRows

open Idealize.ShloMosaic Idealize.ShloMosaic.ValueIdx

/-- The dimension numbers of `[K, N] · [Q, N]ᵀ → [K, Q]`. -/
abbrev rowDims (K N Q : Nat)
    (wf : DotDims.WF ⟨2, ![K, N]⟩ ⟨2, ![Q, N]⟩ ⟨2, ![K, Q]⟩ [1] [1] [0] [0] [] []) :
    DotDims ⟨2, ![K, N]⟩ ⟨2, ![Q, N]⟩ ⟨2, ![K, Q]⟩ where
  lhsContracting := [1]
  rhsContracting := [1]
  lhsNonContracting := [0]
  rhsNonContracting := [0]
  lhsBatch := []
  rhsBatch := []
  wf := wf

section
variable {K N Q : Nat} (wf : DotDims.WF ⟨2, ![K, N]⟩ ⟨2, ![Q, N]⟩ ⟨2, ![K, Q]⟩ [1] [1] [0] [0] [] [])

/-- The left operand's row is the result's row. -/
theorem lhs_row (j : (⟨2, ![K, Q]⟩ : Shape).Idx) (c : (rowDims K N Q wf).contr.Idx) :
    ((rowDims K N Q wf).lhsIdx j c (0 : Fin 2)).val = (j 0).val := by
  unfold DotDims.lhsIdx
  rw [dif_neg (show ¬ (0 : Fin 2) ∈ (rowDims K N Q wf).lhsBatch from List.not_mem_nil),
    dif_pos (show (0 : Fin 2) ∈ (rowDims K N Q wf).lhsNonContracting from List.mem_singleton.mpr rfl)]
  rfl

/-- The left operand's column is the contraction position. -/
theorem lhs_col (j : (⟨2, ![K, Q]⟩ : Shape).Idx) (c : (rowDims K N Q wf).contr.Idx) :
    ((rowDims K N Q wf).lhsIdx j c (1 : Fin 2)).val = (c ⟨0, Nat.one_pos⟩).val :=
  (rowDims K N Q wf).lhsIdx_val_of_single rfl j c

/-- The right operand's row is the result's column. -/
theorem rhs_row (j : (⟨2, ![K, Q]⟩ : Shape).Idx) (c : (rowDims K N Q wf).contr.Idx) :
    ((rowDims K N Q wf).rhsIdx j c (0 : Fin 2)).val = (j 1).val := by
  unfold DotDims.rhsIdx
  rw [dif_neg (show ¬ (0 : Fin 2) ∈ (rowDims K N Q wf).rhsBatch from List.not_mem_nil),
    dif_pos (show (0 : Fin 2) ∈ (rowDims K N Q wf).rhsNonContracting from List.mem_singleton.mpr rfl)]
  rfl

/-- The right operand's column is the contraction position. -/
theorem rhs_col (j : (⟨2, ![K, Q]⟩ : Shape).Idx) (c : (rowDims K N Q wf).contr.Idx) :
    ((rowDims K N Q wf).rhsIdx j c (1 : Fin 2)).val = (c ⟨0, Nat.one_pos⟩).val :=
  (rowDims K N Q wf).rhsIdx_val_of_single rfl j c

/-- Entry `(p, q)` of the product into a zero accumulator is `Σ n, X (p, n) * W (q, n)`. -/
theorem matmul_rows_zero_apply {φ₁ φ₂ : FTy} (X : FVec Ideal ⟨2, ![K, N]⟩ φ₁) (W : FVec Ideal ⟨2, ![Q, N]⟩ φ₂)
    (p : Fin K) (q : Fin Q) :
    FloatOps.matmul (rowDims K N Q wf) none X W (constant ⟨2, ![K, Q]⟩ .f32 0x00000000#32) (ix2 p q)
      = ∑ n : Fin N, X (ix2 p n) * W (ix2 q n) := by
  rw [Ideal.matmul_constant_zero_apply, ← Equiv.sum_comp (contrEquiv1 (rowDims K N Q wf) N rfl rfl).symm]
  refine Finset.sum_congr rfl fun n _ => ?_
  have hn := contrEquiv1_symm_val (rowDims K N Q wf) N rfl rfl n
  have el : (rowDims K N Q wf).lhsIdx (ix2 p q) ((contrEquiv1 (rowDims K N Q wf) N rfl rfl).symm n) = ix2 p n :=
    funext fun a => Fin.ext (by
      match a with
      | ⟨0, _⟩ => exact lhs_row wf _ _
      | ⟨1, _⟩ => exact (lhs_col wf _ _).trans hn)
  have er : (rowDims K N Q wf).rhsIdx (ix2 p q) ((contrEquiv1 (rowDims K N Q wf) N rfl rfl).symm n) = ix2 q n :=
    funext fun a => Fin.ext (by
      match a with
      | ⟨0, _⟩ => exact rhs_row wf _ _
      | ⟨1, _⟩ => exact (rhs_col wf _ _).trans hn)
  rw [el, er]

/-- Entry `(p, q)` of `X · Wᵀ + bias`, the bias one row laid along every row. -/
theorem affine_rows_apply {φ₁ φ₂ : FTy} (X : FVec Ideal ⟨2, ![K, N]⟩ φ₁) (W : FVec Ideal ⟨2, ![Q, N]⟩ φ₂)
    (bias : FVec Ideal ⟨2, ![1, Q]⟩ .f32) (hb : (⟨2, ![1, Q]⟩ : Shape).Broadcasts ⟨2, ![K, Q]⟩) (p : Fin K) (q : Fin Q) :
    addf (matmul (rowDims K N Q wf) none X W (constant ⟨2, ![K, Q]⟩ .f32 0x00000000#32))
        (broadcastTo ⟨2, ![K, Q]⟩ bias hb) (ix2 p q)
      = (∑ n : Fin N, X (ix2 p n) * W (ix2 q n)) + bias (ix2 (0 : Fin 1) q) := by
  show FloatOps.matmul (rowDims K N Q wf) none X W (constant ⟨2, ![K, Q]⟩ .f32 0x00000000#32) (ix2 p q)
      + broadcastTo ⟨2, ![K, Q]⟩ bias hb (ix2 p q) = _
  rw [matmul_rows_zero_apply wf X W p q, broadcastTo_1b_ab_apply bias hb p q]

end

end Idealize.ShloMosaic.DenseRows

end
-- ==== Proof.LibBlockSum.lean ====
/-
  Regrouping a finite sum into consecutive blocks, and a running total as a finite sum.
  Everything here holds in any additive commutative monoid; the extended reals are one
  (their addition is commutative and associative with no finiteness side condition).
-/
import Idealize.ShloMosaic.PureOps.Ideal

open scoped BigOperators

namespace Cert.LibBlockSum

variable {M : Type*} [AddCommMonoid M]

/-- Position `k` of block `i`, for `n` blocks of `m` positions each, is a position below `n * m`. -/
theorem blockIdx_lt {n m i k : ℕ} (hi : i < n) (hk : k < m) : i * m + k < n * m := by
  calc i * m + k < i * m + m := by omega
    _ = (i + 1) * m := by ring
    _ ≤ n * m := Nat.mul_le_mul_right m hi

/-- A sum over `n * m` positions is the sum over the `n` blocks of the sum over the `m` positions
    of each block; position `k` of block `i` is `i * m + k`. -/
theorem sum_blocks_fin (n m : ℕ) (f : Fin (n * m) → M) :
    ∑ j : Fin (n * m), f j
      = ∑ i : Fin n, ∑ k : Fin m, f ⟨i.val * m + k.val, blockIdx_lt i.isLt k.isLt⟩ := by
  rw [← finProdFinEquiv.sum_comp, Fintype.sum_prod_type]
  refine Finset.sum_congr rfl fun i _ => Finset.sum_congr rfl fun k _ => ?_
  congr 1
  ext
  simp only [finProdFinEquiv_apply_val]
  ring

/-- The same regrouping with the block number running over the naturals below `n`. The block number
    is written `i % n`, which is `i` itself there, so that the position is in range for every `i`. -/
theorem sum_blocks_range (n m : ℕ) (hn : 0 < n) (f : Fin (n * m) → M) :
    ∑ j : Fin (n * m), f j
      = ∑ i ∈ Finset.range n, ∑ k : Fin m,
          f ⟨(i % n) * m + k.val, blockIdx_lt (Nat.mod_lt i hn) k.isLt⟩ := by
  rw [sum_blocks_fin n m f,
    ← Fin.sum_univ_eq_sum_range
      (fun i => ∑ k : Fin m, f ⟨(i % n) * m + k.val, blockIdx_lt (Nat.mod_lt i hn) k.isLt⟩) n]
  refine Finset.sum_congr rfl fun i _ => Finset.sum_congr rfl fun k _ => ?_
  congr 1
  ext
  simp only [Nat.mod_eq_of_lt i.isLt]

/-- 8192 positions as 32 blocks of 256, the block number a member of `Fin 32`. -/
theorem sum_blocks_fin32 (f : Fin 8192 → M) :
    ∑ j : Fin 8192, f j
      = ∑ i : Fin 32, ∑ k : Fin 256, f ⟨i.val * 256 + k.val, by omega⟩ :=
  sum_blocks_fin 32 256 f

/-- 8192 positions as 32 blocks of 256, the block number a natural below 32. -/
theorem sum_blocks (f : Fin 8192 → M) :
    ∑ j : Fin 8192, f j
      = ∑ i ∈ Finset.range 32, ∑ k : Fin 256, f ⟨(i % 32) * 256 + k.val, by omega⟩ :=
  sum_blocks_range 32 256 (by norm_num) f

/-- A running total that starts at the first term and adds the next term at every step is, after
    `n` steps, the sum of the first `n + 1` terms. -/
theorem fold_eq_sum (c acc : ℕ → M) (h0 : acc 0 = c 0)
    (hs : ∀ n, acc (n + 1) = acc n + c (n + 1)) (n : ℕ) :
    acc n = ∑ i ∈ Finset.range (n + 1), c i := by
  induction n with
  | zero => simp [h0]
  | succ n ih => rw [hs, ih, Finset.sum_range_succ _ (n + 1)]

end Cert.LibBlockSum
-- ==== Proof.LibConcatCols.lean ====
/-
  Two arrays with the same rows laid side by side, read at an entry.

  Concatenating `[a, b₁]` and `[a, b₂]` along the columns gives `[a, c]` with `c = b₁ + b₂`. Entry `(p, n)` of the
  result is entry `(p, n)` of the first piece while `n < b₁`, and entry `(p, n - b₁)` of the second piece from
  column `b₁` on. The column is given with an equation (`n = k`, or `n = b₁ + k`) so that a caller whose column is a
  sum or a product of numerals can discharge it by arithmetic.
-/
import Idealize.ShloMosaic.Lib.ValueIdx
import Idealize.ShloMosaic.Lib.Pipeline.Value

noncomputable section

namespace Cert.LibConcatCols

open Idealize.ShloMosaic Idealize.ShloMosaic.ValueIdx

variable {α : Type} {a b₁ b₂ c : ℕ}

/-- A column inside the first piece reads the first piece there. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₁) (hn : n.val = k.val) :
    concatenate ⟨2, ![a, c]⟩ 1 [⟨⟨2, ![a, b₁]⟩, x₁⟩, ⟨⟨2, ![a, b₂]⟩, x₂⟩] h (ix2 p n) = x₁ (ix2 p k) :=
  concatenate_pair_apply_left (1 : Fin 2) x₁ x₂ h (ix2 p n) rfl (ix2 p k) fun d =>
    match d with
    | ⟨0, _⟩ => rfl
    | ⟨1, _⟩ => hn.symm

/-- A column past the first piece reads the second piece, the first piece's width to the left. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₂) (hn : n.val = b₁ + k.val) :
    concatenate ⟨2, ![a, c]⟩ 1 [⟨⟨2, ![a, b₁]⟩, x₁⟩, ⟨⟨2, ![a, b₂]⟩, x₂⟩] h (ix2 p n) = x₂ (ix2 p k) :=
  concatenate_pair_apply_right (1 : Fin 2) x₁ x₂ h (ix2 p n) rfl rfl (ix2 p k)
    (fun d hd =>
      match d, hd with
      | ⟨0, _⟩, _ => rfl
      | ⟨1, _⟩, hd => absurd rfl hd)
    (by show k.val + b₁ = n.val; omega)

end Cert.LibConcatCols

end
-- ==== Proof.RbfLaw.lean ====
/-
  One entry of the radial-basis "logits", in two arrangements, and the law that joins them.

  For a batch row `x`, a class's centre `μ` and its raw width `ρ` (vectors over a finite index `d`), let
  `σ d = log (1 + exp (ρ d))` (the softplus, always positive) and `s d = σ d * σ d`.

  * The direct arrangement sums `(x d - μ d)² · (½ · s d)` over `d` and multiplies by a mask: the indicator of
    `P ≥ 0`, where `P = (max(-∞, G) · 2 - (0 + G)) / 1` and `G = exp (-(Σ d, (x d - μ d)² / (2 · s d)))`.
    With one centre per class the maximum and the sum of the activations are the activation itself, so
    `P = G > 0` and the mask is `1`.
  * The expanded arrangement is `Σ d, x d² · (½ s d) + Σ d, x d · (0 - s d · μ d) + Σ d, 1 · (½ s d · μ d · μ d)`.

  Over the reals `(x - μ)² · (½ s) = x² · (½ s) + x · (0 - s μ) + 1 · (½ s μ μ)`, term by term. On the extended
  reals this distributivity, and the argument that the mask is `1`, need every entry to be a real number.
-/
import Idealize.ShloMosaic.PureOps.Ideal
import Idealize.ShloMosaic.PureOps.Ideal.Laws

noncomputable section

open scoped BigOperators

namespace Cert.RbfLaw

open Idealize.ShloMosaic

/-! ## The literals -/

/-- The pattern `0x3F000000` is one half. -/
theorem half_f32 : Ideal.ofBits .f32 0x3F000000#32 = ((1 / 2 : ℝ) : EReal) := by
  simp [Ideal.ofBits, Ideal.ieee, -EReal.coe_mul]; norm_num

/-- The pattern `0x40000000` is two. -/
theorem two_f32 : Ideal.ofBits .f32 0x40000000#32 = ((2 : ℝ) : EReal) := by
  simp [Ideal.ofBits, Ideal.ieee, -EReal.coe_mul]; norm_num

/-- The pattern `0x3F800000` is one. -/
theorem one_f32 : Ideal.ofBits .f32 0x3F800000#32 = ((1 : ℝ) : EReal) := by
  simp [Ideal.ofBits, Ideal.ieee, -EReal.coe_mul]; norm_num

/-- The sixteen-bit pattern `0x3F80` is one. -/
theorem one_bf16 : Ideal.ofBits .bf16 0x3F80#16 = ((1 : ℝ) : EReal) := by
  simp [Ideal.ofBits, Ideal.ieee, -EReal.coe_mul]; norm_num

/-- The pattern `0xFF800000` is minus infinity. -/
theorem ninf_f32 : Ideal.ofBits .f32 0xFF800000#32 = (⊥ : EReal) := by
  simp [Ideal.ofBits, Ideal.ieee]

/-! ## Sums and quotients of reals inside the extended reals -/

/-- A finite sum of reals, read in the extended reals, is the sum of the readings. -/
theorem coe_sum {D : Type*} (t : Finset D) (f : D → ℝ) :
    (∑ d ∈ t, (f d : EReal)) = ((∑ d ∈ t, f d : ℝ) : EReal) := by
  classical
  refine Finset.induction_on t (by simp) (fun a t ha ih => ?_)
  rw [Finset.sum_insert ha, Finset.sum_insert ha, ih, EReal.coe_add]

/-- The quotient of a real by a nonzero real is the real quotient. -/
theorem div_coe_coe (a b : ℝ) (hb : b ≠ 0) : Ideal.div (a : EReal) (b : EReal) = ((a / b : ℝ) : EReal) := by
  rw [Ideal.div_coe hb, ← EReal.coe_mul]
  congr 1
  ring

/-! ## The softplus -/

/-- `log (1 + exp r)`. -/
def softplus (r : ℝ) : ℝ := Real.log (1 + Real.exp r)

/-- It is positive: `1 + exp r > 1`. -/
theorem softplus_pos (r : ℝ) : 0 < softplus r :=
  Real.log_pos (by have := Real.exp_pos r; linarith)

/-- On a real the extended-real `log (1 + exp ·)` is the real softplus. -/
theorem log1p_exp_coe (r : ℝ) : Ideal.log1p (Ideal.exp (r : EReal)) = (softplus r : EReal) := by
  have h1 : Ideal.exp (r : EReal) = (Real.exp r : EReal) := rfl
  have h2 : (1 : EReal) + (Real.exp r : EReal) = ((1 + Real.exp r : ℝ) : EReal) := by
    rw [EReal.coe_add, EReal.coe_one]
  have h3 : ¬ (1 + Real.exp r ≤ 0) := by have := Real.exp_pos r; linarith
  rw [h1, Ideal.log1p, h2]
  show (if 1 + Real.exp r ≤ 0 then (⊥ : EReal) else (Real.log (1 + Real.exp r) : EReal)) = _
  rw [if_neg h3]
  rfl

/-! ## The two arrangements -/

variable {D : Type*} [Fintype D]

/-- The squared width `σ² ` of a raw width, on the extended reals. -/
def width2 (r : EReal) : EReal := Ideal.log1p (Ideal.exp r) * Ideal.log1p (Ideal.exp r)

/-- The expanded arrangement: the three sums, the zero, the half and the one as the literals that denote them. -/
def expanded (X M R : D → EReal) : EReal :=
  ((∑ d, (X d * X d) * (Ideal.ofBits .f32 0x3F000000#32 * width2 (R d)))
      + ∑ d, X d * (Ideal.ofBits .f32 0x00000000#32 - width2 (R d) * M d))
    + ∑ d, Ideal.ofBits .bf16 0x3F80#16 * (((Ideal.ofBits .f32 0x3F000000#32 * width2 (R d)) * M d) * M d)

/-- The weighted squared distance `0 + Σ d, (x d - μ d)² · (½ σ²)`. -/
def distance (X M R : D → EReal) : EReal :=
  Ideal.ofBits .f32 0x00000000#32
    + ∑ d, ((X d - M d) * (X d - M d)) * (Ideal.ofBits .f32 0x3F000000#32 * width2 (R d))

/-- The activation `exp (-(0 + Σ d, (x d - μ d)² / (2 σ²)))`. -/
def activation (X M R : D → EReal) : EReal :=
  Ideal.exp (-(Ideal.ofBits .f32 0x00000000#32
    + ∑ d, Ideal.div ((X d - M d) * (X d - M d)) (Ideal.ofBits .f32 0x40000000#32 * width2 (R d))))

/-- The tested quantity: twice the largest activation of the class (from `-∞`, over its one centre) less the sum of
    its activations (from `0`), over the number of centres, `1`. -/
def maskArg (G : EReal) : EReal :=
  Ideal.div ((max G (Ideal.ofBits .f32 0xFF800000#32)) * Ideal.ofBits .f32 0x40000000#32
      - (Ideal.ofBits .f32 0x00000000#32 + ∑ _j : Fin 1, G))
    (Ideal.ofBits .f32 0x3F800000#32)

/-- The mask: `1` where the tested quantity is at least `0`, else `0`. -/
def mask (G : EReal) : EReal :=
  (((Ideal.cmp .oge (maskArg G) (Ideal.ofBits .f32 0x00000000#32)).toNat : ℝ) : EReal)

/-- The direct arrangement: the distance times the mask of the activation. -/
def direct (X M R : D → EReal) : EReal := distance X M R * mask (activation X M R)

/-! ## The law -/

/-- The mask of a positive real activation is one. -/
theorem mask_coe_of_pos (g : ℝ) (hg : 0 < g) : mask (g : EReal) = 1 := by
  unfold mask maskArg
  rw [ninf_f32, two_f32, one_f32, Ideal.ofBits_zero_f32, max_eq_left bot_le, zero_add, Finset.sum_const,
    Finset.card_univ, Fintype.card_fin, one_smul, ← EReal.coe_mul, ← EReal.coe_sub,
    div_coe_coe _ _ one_ne_zero]
  have h : (0 : EReal) ≤ ((g * 2 - g) / 1 : ℝ) := by
    rw [EReal.coe_nonneg]; linarith
  show (((BitVec.ofBool (decide ((0 : EReal) ≤ ((g * 2 - g) / 1 : ℝ)))).toNat : ℝ) : EReal) = 1
  rw [decide_eq_true h]
  simp

theorem width2_coe (r : ℝ) : width2 (r : EReal) = ((softplus r * softplus r : ℝ) : EReal) := by
  unfold width2; rw [log1p_exp_coe, EReal.coe_mul]

/-- For real rows the direct arrangement is the expanded one. -/
theorem direct_eq_expanded_coe (x μ ρ : D → ℝ) :
    direct (fun d => (x d : EReal)) (fun d => (μ d : EReal)) (fun d => (ρ d : EReal))
      = expanded (fun d => (x d : EReal)) (fun d => (μ d : EReal)) (fun d => (ρ d : EReal)) := by
  have spos : ∀ d, 0 < softplus (ρ d) * softplus (ρ d) := fun d => mul_pos (softplus_pos _) (softplus_pos _)
  -- the activation is a positive real
  have hact : activation (fun d => (x d : EReal)) (fun d => (μ d : EReal)) (fun d => (ρ d : EReal))
      = ((Real.exp (-(∑ d, ((x d - μ d) * (x d - μ d)) / (2 * (softplus (ρ d) * softplus (ρ d))))) : ℝ) : EReal) := by
    unfold activation
    have e : ∀ d, Ideal.div (((x d : EReal) - (μ d : EReal)) * ((x d : EReal) - (μ d : EReal)))
        (Ideal.ofBits .f32 0x40000000#32 * width2 ((ρ d : EReal)))
        = ((((x d - μ d) * (x d - μ d)) / (2 * (softplus (ρ d) * softplus (ρ d))) : ℝ) : EReal) := fun d => by
      rw [two_f32, width2_coe, ← EReal.coe_sub, ← EReal.coe_mul, ← EReal.coe_mul,
        div_coe_coe _ _ (by have := spos d; positivity)]
    simp only [e]
    rw [Ideal.ofBits_zero_f32, zero_add, coe_sum, ← EReal.coe_neg]
    rfl
  -- so the mask is one
  have hmask : mask (activation (fun d => (x d : EReal)) (fun d => (μ d : EReal)) (fun d => (ρ d : EReal))) = 1 := by
    rw [hact]; exact mask_coe_of_pos _ (Real.exp_pos _)
  -- the distance is a real sum
  have hdist : distance (fun d => (x d : EReal)) (fun d => (μ d : EReal)) (fun d => (ρ d : EReal))
      = ((∑ d, ((x d - μ d) * (x d - μ d)) * (1 / 2 * (softplus (ρ d) * softplus (ρ d))) : ℝ) : EReal) := by
    unfold distance
    have e : ∀ d, (((x d : EReal) - (μ d : EReal)) * ((x d : EReal) - (μ d : EReal)))
        * (Ideal.ofBits .f32 0x3F000000#32 * width2 ((ρ d : EReal)))
        = ((((x d - μ d) * (x d - μ d)) * (1 / 2 * (softplus (ρ d) * softplus (ρ d))) : ℝ) : EReal) := fun d => by
      rw [half_f32, width2_coe, ← EReal.coe_sub, ← EReal.coe_mul, ← EReal.coe_mul, ← EReal.coe_mul]
    simp only [e]
    rw [Ideal.ofBits_zero_f32, zero_add, coe_sum]
  -- the expanded arrangement is a real sum too
  have hexp : expanded (fun d => (x d : EReal)) (fun d => (μ d : EReal)) (fun d => (ρ d : EReal))
      = (((∑ d, (x d * x d) * (1 / 2 * (softplus (ρ d) * softplus (ρ d))))
          + (∑ d, x d * (0 - (softplus (ρ d) * softplus (ρ d)) * μ d))
          + (∑ d, 1 * (((1 / 2 * (softplus (ρ d) * softplus (ρ d))) * μ d) * μ d)) : ℝ) : EReal) := by
    unfold expanded
    have e1 : ∀ d, ((x d : EReal) * (x d : EReal)) * (Ideal.ofBits .f32 0x3F000000#32 * width2 ((ρ d : EReal)))
        = (((x d * x d) * (1 / 2 * (softplus (ρ d) * softplus (ρ d))) : ℝ) : EReal) := fun d => by
      rw [half_f32, width2_coe, ← EReal.coe_mul, ← EReal.coe_mul, ← EReal.coe_mul]
    have e2 : ∀ d, (x d : EReal) * (Ideal.ofBits .f32 0x00000000#32 - width2 ((ρ d : EReal)) * (μ d : EReal))
        = ((x d * (0 - (softplus (ρ d) * softplus (ρ d)) * μ d) : ℝ) : EReal) := fun d => by
      rw [Ideal.ofBits_zero_f32, width2_coe, ← EReal.coe_mul, ← EReal.coe_zero, ← EReal.coe_sub, ← EReal.coe_mul]
    have e3 : ∀ d, Ideal.ofBits .bf16 0x3F80#16
          * (((Ideal.ofBits .f32 0x3F000000#32 * width2 ((ρ d : EReal))) * (μ d : EReal)) * (μ d : EReal))
        = ((1 * (((1 / 2 * (softplus (ρ d) * softplus (ρ d))) * μ d) * μ d) : ℝ) : EReal) := fun d => by
      rw [one_bf16, half_f32, width2_coe, ← EReal.coe_mul, ← EReal.coe_mul, ← EReal.coe_mul, ← EReal.coe_mul]
    simp only [e1, e2, e3]
    rw [coe_sum, coe_sum, coe_sum, ← EReal.coe_add, ← EReal.coe_add]
  unfold direct
  rw [hmask, mul_one, hdist, hexp]
  congr 1
  rw [← Finset.sum_add_distrib, ← Finset.sum_add_distrib]
  refine Finset.sum_congr rfl fun d _ => ?_
  ring

/-- For rows all of whose entries are real numbers the direct arrangement is the expanded one. -/
theorem direct_eq_expanded (X M R : D → EReal) (hX : ∀ d, ∃ r : ℝ, X d = r) (hM : ∀ d, ∃ r : ℝ, M d = r)
    (hR : ∀ d, ∃ r : ℝ, R d = r) : direct X M R = expanded X M R := by
  choose x hx using hX
  choose μ hμ using hM
  choose ρ hρ using hR
  rw [show X = fun d => (x d : EReal) from funext hx, show M = fun d => (μ d : EReal) from funext hμ,
    show R = fun d => (ρ d : EReal) from funext hρ]
  exact direct_eq_expanded_coe x μ ρ

end Cert.RbfLaw

end
-- ==== Proof.KernelEntry.lean ====
/-
  One entry of the block the kernel writes at a grid point.

  The body holds a block of 256 batch rows `x` and the centres `μ` and raw widths `ρ` of 128 classes. With
  `s = softplus(ρ)²` it forms `x·x` beside `x` (256 × 1024), `½ s` beside `0 - s·μ` (128 × 1024), contracts the
  two along their 1024 columns, and adds one row (1 × 128) obtained by contracting a row of ones with
  `½ s · μ · μ`. A contraction over two pieces laid side by side is the sum of the two pieces' contractions, so
  entry `(p, q)` of the block is
  `Σ d, x²·(½ s) + Σ d, x·(0 - s μ) + Σ d, 1·(½ s μ μ)` over row `p` of `x` and rows `q` of `μ` and `ρ`:
  the expanded arrangement. Narrowing the operands to sixteen bits changes nothing on the extended reals.
-/
import proofs.«131172_j85272280695302_2_alg».proof.Proof.Gen.KernelIdeal.Skeleton
import proofs.«131172_j85272280695302_2_alg».proof.Proof.LibDenseRows
import proofs.«131172_j85272280695302_2_alg».proof.Proof.LibBlockSum
import proofs.«131172_j85272280695302_2_alg».proof.Proof.LibConcatCols
import proofs.«131172_j85272280695302_2_alg».proof.Proof.RbfLaw
import Idealize.ShloMosaic.Lib.ValueIdx
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.ValueIdx

/-- Contracting `[A1 | A2]` with `[B1 | B2]` along their 1024 columns: the first 512 columns meet `A1` and `B1`,
    the last 512 meet `A2` and `B2`. -/
theorem dot_concat {a a' : ℕ} (A1 A2 : (⟨2, ![a, 512]⟩ : Shape).Idx → EReal) (B1 B2 : (⟨2, ![a', 512]⟩ : Shape).Idx → EReal)
    (hA : Shape.Concatenates [(⟨2, ![a, 512]⟩ : Shape), ⟨2, ![a, 512]⟩] ⟨2, ![a, 1024]⟩ 1)
    (hB : Shape.Concatenates [(⟨2, ![a', 512]⟩ : Shape), ⟨2, ![a', 512]⟩] ⟨2, ![a', 1024]⟩ 1) (p : Fin a) (q : Fin a') :
    ∑ n : Fin 1024, concatenate ⟨2, ![a, 1024]⟩ 1 [⟨⟨2, ![a, 512]⟩, A1⟩, ⟨⟨2, ![a, 512]⟩, A2⟩] hA (ix2 p n)
        * concatenate ⟨2, ![a', 1024]⟩ 1 [⟨⟨2, ![a', 512]⟩, B1⟩, ⟨⟨2, ![a', 512]⟩, B2⟩] hB (ix2 q n)
      = (∑ k : Fin 512, A1 (ix2 p k) * B1 (ix2 q k)) + ∑ k : Fin 512, A2 (ix2 p k) * B2 (ix2 q k) := by
  refine (Cert.LibBlockSum.sum_blocks_fin 2 512 _).trans ?_
  rw [Fin.sum_univ_two]
  refine congrArg₂ (· + ·) (Finset.sum_congr rfl fun k _ => ?_) (Finset.sum_congr rfl fun k _ => ?_)
  · exact congrArg₂ (· * ·)
      (Cert.LibConcatCols.concat_cols_left A1 A2 hA p _ k (by show 0 * 512 + k.val = k.val; omega))
      (Cert.LibConcatCols.concat_cols_left B1 B2 hB q _ k (by show 0 * 512 + k.val = k.val; omega))
  · exact congrArg₂ (· * ·)
      (Cert.LibConcatCols.concat_cols_right A1 A2 hA p _ k (by show 1 * 512 + k.val = 512 + k.val; omega))
      (Cert.LibConcatCols.concat_cols_right B1 B2 hB q _ k (by show 1 * 512 + k.val = 512 + k.val; omega))

/-- Entry `(p, q)` of the body's result is the expanded arrangement over row `p` of the batch block and rows `q`
    of the centres and raw widths. -/
theorem pay_apply (x0 : Vec Ideal S256x512 .f32) (x1 x3 : Vec Ideal S128x512 .f32) (p : Fin 256) (q : Fin 128) :
    k0_pay1 (F := Ideal) x0 x1 x3 (ix2 p q)
      = Cert.RbfLaw.expanded (fun d : Fin 512 => x0 (ix2 p d)) (fun d : Fin 512 => x1 (ix2 q d))
          (fun d : Fin 512 => x3 (ix2 q d)) := by
  unfold k0_pay1
  simp only [shapeCast_self]
  refine (DenseRows.affine_rows_apply (K := 256) (N := 1024) (Q := 128) _ _ _ _ _ p q).trans ?_
  unfold Cert.RbfLaw.expanded
  refine congrArg₂ (· + ·) ?_ ?_
  · refine (dot_concat _ _ _ _ _ _ p q).trans ?_
    simp only [shapeCast_self]
    rfl
  · refine (DenseRows.matmul_rows_zero_apply (K := 1) (N := 512) (Q := 128) _ _ _ 0 q).trans ?_
    rfl

end Cert.KernelIdeal.Entry

end
-- ==== Proof.LibSqueezeMiddle.lean ====
/-
  Dropping a middle axis of extent one, read at an entry.

  An array `[a, 1, b]` reshaped to `[a, b]` keeps its row-major order, and entry `(p, q)` of the result is entry
  `(p, 0, q)` of the operand: both sit at position `p · b + q`.
-/
import Idealize.ShloMosaic.Lib.ValueIdx
import Idealize.ShloMosaic.Lib.Pipeline.Value

noncomputable section

namespace Cert.LibSqueezeMiddle

open Idealize.ShloMosaic Idealize.ShloMosaic.ValueIdx

variable {α : Type} {a b : ℕ}

/-- Entry `(p, q)` of `[a, 1, b]` reshaped to `[a, b]` is entry `(p, 0, q)`. -/
theorem shapeCast_a1b_ab_apply (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) := by
  refine shapeCast_apply x h (ix2 p q) (ix3 p (0 : Fin 1) q) ?_
  rw [Shape.rowMajor_val_three, Shape.rowMajor_val_two]
  show (p.val * 1 + 0) * b + q.val = p.val * b + q.val
  simp only [Nat.mul_one, Nat.add_zero]

end Cert.LibSqueezeMiddle

end
-- ==== Proof.KernelArray.lean ====
/-
  From the blocks the kernel writes to the whole result array.

  The grid has 2 × 4 points. At point `(g, h)` the kernel reads rows `256 h … 256 h + 255` of the batch and rows
  `128 g … 128 g + 127` of the centres and raw widths (all 512 columns of each), and writes the block of the result
  with rows `256 h …` and columns `128 g …`. Entry `(p, q)` of that block depends on batch row `256 h + p` and on
  class `128 g + q` only, so every block is the restriction of ONE function of the whole arrays: entry `(i, j)` of
  the result is the expanded arrangement over batch row `i` and class `j`. The eight blocks tile the result, the
  block holding `(i, j)` being the one with `h = i / 256` and `g = j / 128`. Before the grid starts the host has
  only dropped the middle axis (of extent one) of the centres and of the raw widths.
-/
import proofs.«131172_j85272280695302_2_alg».proof.Proof.Gen.KernelIdeal.Value
import proofs.«131172_j85272280695302_2_alg».proof.Proof.KernelEntry
import proofs.«131172_j85272280695302_2_alg».proof.Proof.LibSqueezeMiddle
import Idealize.ShloMosaic.Lib.Pipeline.Value
import Idealize.ShloMosaic.Lib.ValueIdx
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result as one function of the batch `[1024, 512]` and of the centres and raw widths as the grid finds them
    (`[256, 512]`): entry `(i, j)` is the expanded arrangement over batch row `i` and class `j`. -/
def logits (a0 : S1024x512.Idx → EReal) (a1 a2 : S256x512.Idx → EReal) : S1024x256.Idx → EReal := fun i =>
  Cert.RbfLaw.expanded (fun d : Fin 512 => a0 (ix2 (i 0 : Fin 1024) d)) (fun d : Fin 512 => a1 (ix2 (i 1 : Fin 256) d))
    (fun d : Fin 512 => a2 (ix2 (i 1 : Fin 256) d))

/-- The body's result at any entry of its block. -/
theorem pay_at (x0 : Vec Ideal S256x512 .f32) (x1 x3 : Vec Ideal S128x512 .f32) (y : S256x128.Idx) :
    k0_pay1 (F := Ideal) x0 x1 x3 y
      = Cert.RbfLaw.expanded (fun d : Fin 512 => x0 (ix2 (y 0 : Fin 256) d)) (fun d : Fin 512 => x1 (ix2 (y 1 : Fin 128) d))
          (fun d : Fin 512 => x3 (ix2 (y 1 : Fin 128) d)) := by
  obtain ⟨p, q, rfl⟩ : ∃ (p : Fin 256) (q : Fin 128), y = ix2 p q := ⟨y 0, y 1, eq_ix2 y⟩
  exact Entry.pay_apply x0 x1 x3 p q

/-- The printed index maps, decided over the eight points: the batch block's row block is the result's, the class
    blocks' row block is the result's column block, and no input block is offset along its 512 columns. -/
theorem idx_facts : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = win0_3.index t (1 : Fin 2)
    ∧ win0_2.index t (1 : Fin 2) = 0 :=
  (by decide +kernel : ∀ t : Fin grid0.N, _)

/-- Every block of the result is some point's. -/
theorem idx_onto : ∀ (q0 : Fin 4) (q1 : Fin 2), ∃ t : Fin cfg0.N, win0_3.index t = ![q0.val, q1.val] :=
  (by decide +kernel : ∀ (q0 : Fin 4) (q1 : Fin 2), ∃ t : Fin grid0.N, win0_3.index t = ![q0.val, q1.val])

/-- An entry of the batch block at point `t` is the entry of the batch at the block's offset. -/
theorem iblk0_apply (c : Dev nD) (t : Fin cfg0.N) (y : S256x512.Idx) (k : S1024x512.Idx)
    (hk0 : (k 0).val = win0_0.index t (0 : Fin 2) * 256 + (y 0).val)
    (hk1 : (k 1).val = win0_0.index t (1 : Fin 2) * 512 + (y 1).val) :
    (iblk m c 0 t : Vec Ideal S256x512 .f32) y = (V m c main_arg0 : S1024x512.Idx → EReal) k := by
  unfold iblk
  rw [View.read_apply]
  show (V m c main_arg0 : S1024x512.Idx → EReal) _ = V m c main_arg0 k
  congr 1
  funext a
  apply Fin.ext
  match a with
  | ⟨0, _⟩ => show win0_0.index t (0 : Fin 2) * 256 + 1 * (y 0).val = (k 0).val; omega
  | ⟨1, _⟩ => show win0_0.index t (1 : Fin 2) * 512 + 1 * (y 1).val = (k 1).val; omega

/-- An entry of the centres' block at point `t`. -/
theorem iblk1_apply (c : Dev nD) (t : Fin cfg0.N) (y : S128x512.Idx) (k : S256x512.Idx)
    (hk0 : (k 0).val = win0_1.index t (0 : Fin 2) * 128 + (y 0).val)
    (hk1 : (k 1).val = win0_1.index t (1 : Fin 2) * 512 + (y 1).val) :
    (iblk m c 1 t : Vec Ideal S128x512 .f32) y = (V m c main_v0 : S256x512.Idx → EReal) k := by
  unfold iblk
  rw [View.read_apply]
  show (V m c main_v0 : S256x512.Idx → EReal) _ = V m c main_v0 k
  congr 1
  funext a
  apply Fin.ext
  match a with
  | ⟨0, _⟩ => show win0_1.index t (0 : Fin 2) * 128 + 1 * (y 0).val = (k 0).val; omega
  | ⟨1, _⟩ => show win0_1.index t (1 : Fin 2) * 512 + 1 * (y 1).val = (k 1).val; omega

/-- An entry of the raw widths' block at point `t`. -/
theorem iblk2_apply (c : Dev nD) (t : Fin cfg0.N) (y : S128x512.Idx) (k : S256x512.Idx)
    (hk0 : (k 0).val = win0_2.index t (0 : Fin 2) * 128 + (y 0).val)
    (hk1 : (k 1).val = win0_2.index t (1 : Fin 2) * 512 + (y 1).val) :
    (iblk m c 2 t : Vec Ideal S128x512 .f32) y = (V m c main_v1 : S256x512.Idx → EReal) k := by
  unfold iblk
  rw [View.read_apply]
  show (V m c main_v1 : S256x512.Idx → EReal) _ = V m c main_v1 k
  congr 1
  funext a
  apply Fin.ext
  match a with
  | ⟨0, _⟩ => show win0_2.index t (0 : Fin 2) * 128 + 1 * (y 0).val = (k 0).val; omega
  | ⟨1, _⟩ => show win0_2.index t (1 : Fin 2) * 512 + 1 * (y 1).val = (k 1).val; omega

/-- What point `t` writes back is block `t` of `logits` of the arrays as the grid finds them. -/
theorem flushed_eq (c : Dev nD) (t : Fin cfg0.N) :
    (dats m 0 c).flushed 3 t
      = ((cfg0.win 3).blk t).view.read (Elt Ideal) (logits (V m c main_arg0) (V m c main_v0) (V m c main_v1)) := by
  rw [Cert.KernelIdeal.Value.flushed3]
  unfold out0_3
  rw [View.canon_unit_zero hz]
  simp only [View.ld_unit_zero (S := S256x512) hz, View.ld_unit_zero (S := S128x512) hz]
  obtain ⟨e0, e1, e2, e3, e4, e5⟩ := idx_facts t
  funext j
  show k0_pay1 (F := Ideal) (iblk m c 0 t) (iblk m c 1 t) (iblk m c 2 t) j
      = logits (V m c main_arg0) (V m c main_v0) (V m c main_v1) (((cfg0.win 3).blk t).view.emb j)
  refine (pay_at (iblk m c 0 t) (iblk m c 1 t) (iblk m c 2 t) j).trans ?_
  have h0 : (fun d : Fin 512 => (iblk m c 0 t : Vec Ideal S256x512 .f32) (ix2 (j 0 : Fin 256) d))
      = fun d : Fin 512 => (V m c main_arg0 : S1024x512.Idx → EReal)
          (ix2 ((((cfg0.win 3).blk t).view.emb j) 0 : Fin 1024) d) :=
    funext fun d => iblk0_apply m c t _ _
      (by show win0_3.index t (0 : Fin 2) * 256 + 1 * (j 0).val = win0_0.index t (0 : Fin 2) * 256 + (j 0).val; omega)
      (by show d.val = win0_0.index t (1 : Fin 2) * 512 + d.val; omega)
  have h1 : (fun d : Fin 512 => (iblk m c 1 t : Vec Ideal S128x512 .f32) (ix2 (j 1 : Fin 128) d))
      = fun d : Fin 512 => (V m c main_v0 : S256x512.Idx → EReal)
          (ix2 ((((cfg0.win 3).blk t).view.emb j) 1 : Fin 256) d) :=
    funext fun d => iblk1_apply m c t _ _
      (by show win0_3.index t (1 : Fin 2) * 128 + 1 * (j 1).val = win0_1.index t (0 : Fin 2) * 128 + (j 1).val; omega)
      (by show d.val = win0_1.index t (1 : Fin 2) * 512 + d.val; omega)
  have h2 : (fun d : Fin 512 => (iblk m c 2 t : Vec Ideal S128x512 .f32) (ix2 (j 1 : Fin 128) d))
      = fun d : Fin 512 => (V m c main_v1 : S256x512.Idx → EReal)
          (ix2 ((((cfg0.win 3).blk t).view.emb j) 1 : Fin 256) d) :=
    funext fun d => iblk2_apply m c t _ _
      (by show win0_3.index t (1 : Fin 2) * 128 + 1 * (j 1).val = win0_2.index t (0 : Fin 2) * 128 + (j 1).val; omega)
      (by show d.val = win0_2.index t (1 : Fin 2) * 512 + d.val; omega)
  rw [h0, h1, h2]
  rfl

/-- An index of the result is in point `t`'s block iff each coordinate is in the block's range on its axis. -/
theorem mem_blk (t : Fin cfg0.N) (i : S1024x256.Idx) :
    i ∈ ((cfg0.win 3).blk t).view.set ↔ ∀ a : Fin 2, win0_3.index t a * S256x128.size a ≤ (i a).val
      ∧ (i a).val < win0_3.index t a * S256x128.size a + S256x128.size a := by
  show i ∈ ((View.whole main_v2).slice (win0_3.rect t)).set ↔ _
  rw [View.set_slice_whole, Rect.mem_set_unit]
  exact Iff.rfl

/-- Every entry of the result lies in some point's block. -/
theorem cover (i : S1024x256.Idx) :
    ∃ t : Fin cfg0.N, (cfg0.win 3).flush t = true ∧ i ∈ ((cfg0.win 3).blk t).view.set := by
  have hi0 : (i 0).val < 1024 := (i 0).isLt
  have hi1 : (i 1).val < 256 := (i 1).isLt
  obtain ⟨t, ht⟩ := idx_onto ⟨(i 0).val / 256, by omega⟩ ⟨(i 1).val / 128, by omega⟩
  have q0 : win0_3.index t (0 : Fin 2) = (i 0).val / 256 := congrFun ht 0
  have q1 : win0_3.index t (1 : Fin 2) = (i 1).val / 128 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 128 ≤ (i 1).val ∧ (i 1).val < win0_3.index t (1 : Fin 2) * 128 + 128
    omega

/-- So after the run the result array is `logits` of the arrays as the grid finds them. -/
theorem final (c : Dev nD) :
    (dats m 0 c).arrAt 3 cfg0.N = logits (V m c main_arg0) (V m c main_v0) (V m c main_v1) :=
  (dats m 0 c).arrAt_eq_of_cover 3 (logits (V m c main_arg0) (V m c main_v0) (V m c main_v1))
    (fun t _ => flushed_eq m c t) cover

/-- The grid finds the centres with their middle axis dropped. -/
theorem V_centres (c : Dev nD) : (V m c main_v0 : S256x512.Idx → EReal)
    = shapeCast S256x512 (m ((c : Thread nD τ).loc main_arg1)) shapeCasts_S256x1x512_S256x512 := by
  dsimp only [Gen.V, Gen.hostOps0]
  after_results
  rfl

/-- The grid finds the raw widths with their middle axis dropped. -/
theorem V_widths (c : Dev nD) : (V m c main_v1 : S256x512.Idx → EReal)
    = shapeCast S256x512 (m ((c : Thread nD τ).loc main_arg2)) shapeCasts_S256x1x512_S256x512 := by
  dsimp only [Gen.V, Gen.hostOps0]
  after_results
  rfl

/-- The result as a function of the three arguments as launched: entry `(i, j)` is the expanded arrangement over
    row `i` of the batch and rows `(j, 0)` of the centres and raw widths. -/
def result (a0 : S1024x512.Idx → EReal) (a1 a2 : S256x1x512.Idx → EReal) : S1024x256.Idx → EReal := fun i =>
  Cert.RbfLaw.expanded (fun d : Fin 512 => a0 (ix2 (i 0 : Fin 1024) d))
    (fun d : Fin 512 => a1 (ix3 (i 1 : Fin 256) (0 : Fin 1) d)) (fun d : Fin 512 => a2 (ix3 (i 1 : Fin 256) (0 : Fin 1) d))

/-- After the run the result array is `result` of the arguments as launched. -/
theorem final_args (c : Dev nD) : (dats m 0 c).arrAt 3 cfg0.N
    = result (m ((c : Thread nD τ).loc main_arg0)) (m ((c : Thread nD τ).loc main_arg1)) (m ((c : Thread nD τ).loc main_arg2)) := by
  rw [final, V_centres, V_widths, V_main_arg0]
  funext i
  obtain ⟨b, k, rfl⟩ : ∃ (b : Fin 1024) (k : Fin 256), i = ix2 b k := ⟨i 0, i 1, eq_ix2 i⟩
  exact congrArg₂
    (fun M R : Fin 512 → EReal => Cert.RbfLaw.expanded
      (fun d : Fin 512 => (m ((c : Thread nD τ).loc main_arg0) : S1024x512.Idx → EReal) (ix2 b d)) M R)
    (funext fun d => Cert.LibSqueezeMiddle.shapeCast_a1b_ab_apply _ _ k d)
    (funext fun d => Cert.LibSqueezeMiddle.shapeCast_a1b_ab_apply _ _ k d)

/-- The kernel's run: the result array at `result` of the arguments, the arguments unchanged. -/
theorem run : θ_run defs (onTc (τ := τ) (main (F := Ideal))) ⟨m, fun _ => 0, ρ⟩ fun r => ∀ c : Dev nD,
      r.2.mem ((c : Thread nD τ).loc main_v2)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_args m c), (h c).2⟩)
    (Cert.KernelIdeal.Value.run_blocks m ρ)

end Cert.KernelIdeal.Whole

end
-- ==== Proof.ReferenceEntry.lean ====
/-
  One entry of the reference's result.

  The reference broadcasts the batch `x` (`[1024, 512]`) and the centres `μ` (`[256, 1, 512]`) to `[256, 1, 1024, 512]`,
  squares their difference, and sums over the last axis twice: once weighted by `½ σ²` (the distance, `[256, 1, 1024]`),
  once divided by `2 σ²`, negated and exponentiated (the activation). Over the centre axis, of extent one, it takes
  the maximum of the activation from `-∞` and its sum from `0`; from these it forms the tested quantity, compares it
  with `0`, and multiplies the transposed distance by the resulting 0/1 array. Read at entry `(b, k)` every stage
  reads batch row `b` and row `(k, 0)` of the centres and raw widths, and the result is the direct arrangement.
-/
import proofs.«131172_j85272280695302_2_alg».proof.Proof.Gen.ReferenceIdeal.Read
import proofs.«131172_j85272280695302_2_alg».proof.Proof.RbfLaw
import Idealize.ShloMosaic.Lib.ValueIdx
import Idealize.ShloMosaic.PureOps.Ideal.Laws
import Idealize.ShloMosaic.PureOps.Reduce

noncomputable section

open scoped BigOperators

namespace Cert.ReferenceIdeal.Entry

open Cert.ReferenceIdeal Cert.ReferenceIdeal.Gen Cert.ReferenceIdeal.Read Idealize.ShloMosaic
open Idealize.ShloMosaic.ValueIdx

variable (x0 : (⟨S1024x512, .f32⟩ : BufTy).Contents (Elt Ideal)) (x1 x2 : (⟨S256x1x512, .f32⟩ : BufTy).Contents (Elt Ideal))
variable (b : Fin 1024) (k : Fin 256)

/-- A fold over the one position of an axis of extent one is one application of the operation. -/
theorem fold_fin_one {β : Type} (op : β → β → β) [Std.Commutative op] [Std.Associative op] (z : β) (f : Fin 1 → β) :
    (Finset.univ : Finset (Fin 1)).fold op z f = op (f 0) z := by
  rw [show (Finset.univ : Finset (Fin 1)) = {0} from by decide]
  exact Finset.fold_singleton

/-- The squared difference at `(k, 0, b, d)`. -/
theorem sq_apply (d : Fin 512) :
    val_main_v7 (F := Ideal) x0 x1 (ix4 k (0 : Fin 1) b d)
      = (x0 (ix2 b d) - x1 (ix3 k (0 : Fin 1) d)) * (x0 (ix2 b d) - x1 (ix3 k (0 : Fin 1) d)) := by
  have e0 : idx_main_v2 (idx_main_v4 (ix4 k (0 : Fin 1) b d)) = ix2 b d :=
    funext fun a => match a with | ⟨0, _⟩ => rfl | ⟨1, _⟩ => rfl
  have e1 : idx_main_v3 (idx_main_v5 (ix4 k (0 : Fin 1) b d)) = ix3 k (0 : Fin 1) d :=
    funext fun a => match a with | ⟨0, _⟩ => rfl | ⟨1, _⟩ => rfl | ⟨2, _⟩ => rfl
  rw [val_main_v7_apply, val_main_v6_apply, val_main_v4_apply, val_main_v2_apply, val_main_v5_apply,
    val_main_v3_apply, e0, e1]
  rfl

/-- The distance's weight `½ σ²` at `(k, 0, b, d)`. -/
theorem weight_apply (d : Fin 512) :
    val_main_v12 (F := Ideal) x2 (ix4 k (0 : Fin 1) b d)
      = Ideal.ofBits .f32 0x3F000000#32 * Cert.RbfLaw.width2 (x2 (ix3 k (0 : Fin 1) d)) := by
  have e : idx_main_v11 (idx_main_v12 (ix4 k (0 : Fin 1) b d)) = ix3 k (0 : Fin 1) d :=
    funext fun a => match a with | ⟨0, _⟩ => rfl | ⟨1, _⟩ => rfl | ⟨2, _⟩ => rfl
  rw [val_main_v12_apply, val_main_v11_apply, e, val_main_v10_apply, val_main_v9_apply, val_main_cst_apply,
    val_main_v8_apply, val_main_v1_apply, val_main_v0_apply]
  rfl

/-- The activation's divisor `2 σ²` at `(k, 0, b, d)`. -/
theorem divisor_apply (d : Fin 512) :
    val_main_v18 (F := Ideal) x2 (ix4 k (0 : Fin 1) b d)
      = Ideal.ofBits .f32 0x40000000#32 * Cert.RbfLaw.width2 (x2 (ix3 k (0 : Fin 1) d)) := by
  have e : idx_main_v17 (idx_main_v18 (ix4 k (0 : Fin 1) b d)) = ix3 k (0 : Fin 1) d :=
    funext fun a => match a with | ⟨0, _⟩ => rfl | ⟨1, _⟩ => rfl | ⟨2, _⟩ => rfl
  rw [val_main_v18_apply, val_main_v17_apply, e, val_main_v16_apply, val_main_v15_apply, val_main_cst_1_apply,
    val_main_v8_apply, val_main_v1_apply, val_main_v0_apply]
  rfl

/-- The distance at `(k, 0, b)`. -/
theorem distance_apply :
    val_main_v14 (F := Ideal) x0 x1 x2 (ix3 k (0 : Fin 1) b)
      = Cert.RbfLaw.distance (fun d : Fin 512 => x0 (ix2 b d)) (fun d : Fin 512 => x1 (ix3 k (0 : Fin 1) d))
          (fun d : Fin 512 => x2 (ix3 k (0 : Fin 1) d)) := by
  rw [val_main_v14_apply]
  unfold Cert.RbfLaw.distance
  refine congrArg₂ (· + ·) rfl (Finset.sum_congr rfl fun d _ => ?_)
  have e : idx_main_v14 (ix3 k (0 : Fin 1) b) d = ix4 k (0 : Fin 1) b d :=
    funext fun a => match a with | ⟨0, _⟩ => rfl | ⟨1, _⟩ => rfl | ⟨2, _⟩ => rfl | ⟨3, _⟩ => rfl
  rw [e, val_main_v13_apply, sq_apply, weight_apply]
  rfl

/-- The activation at `(k, 0, b)`. -/
theorem activation_apply :
    val_main_v22 (F := Ideal) x0 x1 x2 (ix3 k (0 : Fin 1) b)
      = Cert.RbfLaw.activation (fun d : Fin 512 => x0 (ix2 b d)) (fun d : Fin 512 => x1 (ix3 k (0 : Fin 1) d))
          (fun d : Fin 512 => x2 (ix3 k (0 : Fin 1) d)) := by
  rw [val_main_v22_apply, val_main_v21_apply, val_main_v20_apply]
  unfold Cert.RbfLaw.activation
  refine congrArg Ideal.exp (congrArg Neg.neg (congrArg₂ (· + ·) rfl (Finset.sum_congr rfl fun d _ => ?_)))
  have e : idx_main_v20 (ix3 k (0 : Fin 1) b) d = ix4 k (0 : Fin 1) b d :=
    funext fun a => match a with | ⟨0, _⟩ => rfl | ⟨1, _⟩ => rfl | ⟨2, _⟩ => rfl | ⟨3, _⟩ => rfl
  rw [e, val_main_v19_apply, sq_apply, divisor_apply]
  rfl

/-- The largest activation of class `k` for batch row `b`, over its one centre, from `-∞`. -/
theorem maxact_apply :
    val_main_v23 (F := Ideal) x0 x1 x2 (ix2 k b)
      = max (Cert.RbfLaw.activation (fun d : Fin 512 => x0 (ix2 b d)) (fun d : Fin 512 => x1 (ix3 k (0 : Fin 1) d))
          (fun d : Fin 512 => x2 (ix3 k (0 : Fin 1) d))) (Ideal.ofBits .f32 0xFF800000#32) := by
  have hR : S256x1x1024.Reduces [1] S256x1024 := by decide
  have hl : hR.lift (ix2 k b) (0 : Fin 1) = ix3 k (0 : Fin 1) b := by
    funext c; apply Fin.ext
    fin_cases c <;> rfl
  unfold val_main_v23
  refine (Host.reduce_eq_fold_single FloatOps.maximumf _ _ _ hR _ (ix2 k b)).trans ?_
  refine (fold_fin_one _ _ _).trans ?_
  refine congrArg₂ max ?_ rfl
  show val_main_v22 (F := Ideal) x0 x1 x2 (hR.lift (ix2 k b) (0 : Fin 1)) = _
  rw [hl, activation_apply]

/-- The mask at `(b, k)`. -/
theorem mask_apply :
    val_main_v34 (F := Ideal) x0 x1 x2 (ix2 b k)
      = Cert.RbfLaw.mask (Cert.RbfLaw.activation (fun d : Fin 512 => x0 (ix2 b d))
          (fun d : Fin 512 => x1 (ix3 k (0 : Fin 1) d)) (fun d : Fin 512 => x2 (ix3 k (0 : Fin 1) d))) := by
  have e30 : idx_main_v30 (ix2 b k) = ix2 k b := funext fun a => match a with | ⟨0, _⟩ => rfl | ⟨1, _⟩ => rfl
  have hsum : ∑ j : Fin 1, val_main_v22 (F := Ideal) x0 x1 x2 (idx_main_v26 (ix2 k b) j)
      = ∑ _j : Fin 1, Cert.RbfLaw.activation (fun d : Fin 512 => x0 (ix2 b d))
          (fun d : Fin 512 => x1 (ix3 k (0 : Fin 1) d)) (fun d : Fin 512 => x2 (ix3 k (0 : Fin 1) d)) :=
    Finset.sum_congr rfl fun j _ => by
      have e : idx_main_v26 (ix2 k b) j = ix3 k (0 : Fin 1) b :=
        funext fun a => match a with
          | ⟨0, _⟩ => rfl
          | ⟨1, _⟩ => Fin.ext (by show j.val = 0; have := j.isLt; omega)
          | ⟨2, _⟩ => rfl
      rw [e, activation_apply]
  rw [val_main_v34_apply, val_main_v33_apply, val_main_v30_apply, e30, val_main_v29_apply, val_main_v27_apply,
    val_main_v25_apply, val_main_v24_apply, val_main_cst_4_apply, val_main_v26_apply, val_main_v28_apply,
    val_main_cst_6_apply, val_main_v32_apply, val_main_cst_7_apply, maxact_apply, hsum]
  rfl

/-- The reference's result at `(b, k)` is the direct arrangement over batch row `b` and class `k`. -/
theorem result_apply :
    val_main_v37 (F := Ideal) x0 x1 x2 (ix2 b k)
      = Cert.RbfLaw.direct (fun d : Fin 512 => x0 (ix2 b d)) (fun d : Fin 512 => x1 (ix3 k (0 : Fin 1) d))
          (fun d : Fin 512 => x2 (ix3 k (0 : Fin 1) d)) := by
  have e37 : idx_main_v37 (ix2 b k) = ix3 b k (0 : Fin 1) :=
    funext fun a => match a with
      | ⟨0, _⟩ => Fin.ext (by show (b.val * 256 + k.val) / 256 = b.val; have := k.isLt; omega)
      | ⟨1, _⟩ => Fin.ext (by show (b.val * 256 + k.val) / 1 % 256 = k.val; have := k.isLt; omega)
      | ⟨2, _⟩ => rfl
  have e31 : idx_main_v31 (ix3 b k (0 : Fin 1)) = ix3 k (0 : Fin 1) b :=
    funext fun a => match a with | ⟨0, _⟩ => rfl | ⟨1, _⟩ => rfl | ⟨2, _⟩ => rfl
  have e35 : idx_main_v35 (ix3 b k (0 : Fin 1)) = ix2 b k :=
    funext fun a => match a with | ⟨0, _⟩ => rfl | ⟨1, _⟩ => rfl
  rw [val_main_v37_apply, e37, val_main_v36_apply, val_main_v31_apply, e31, val_main_v35_apply, e35,
    distance_apply, mask_apply]
  rfl

end Cert.ReferenceIdeal.Entry

end
-- ==== Proof.Bridge.lean ====
/-
  The reference's result is the kernel's, entry by entry, when every input is a real number.

  At entry `(b, k)` the reference computes the direct arrangement over batch row `b` and row `(k, 0)` of the centres and
  raw widths, and the kernel the expanded arrangement over the same three rows. For real rows the mask of the direct
  arrangement is one and `(x - μ)² · ½σ²` expands term by term, so the two agree.
-/
import proofs.«131172_j85272280695302_2_alg».proof.Proof.ReferenceEntry
import proofs.«131172_j85272280695302_2_alg».proof.Proof.KernelArray
import proofs.«131172_j85272280695302_2_alg».proof.Proof.RbfLaw

noncomputable section

namespace Cert.Bridge

open Idealize.ShloMosaic Idealize.ShloMosaic.ValueIdx

/-- The reference's last stage, as a function of the three arguments, is the kernel's result function of them. -/
theorem reference_eq_result
    (x0 : (⟨Cert.ReferenceIdeal.S1024x512, .f32⟩ : BufTy).Contents (Elt Ideal))
    (x1 x2 : (⟨Cert.ReferenceIdeal.S256x1x512, .f32⟩ : BufTy).Contents (Elt Ideal))
    (h0 : ∀ i, ∃ r : ℝ, x0 i = r) (h1 : ∀ i, ∃ r : ℝ, x1 i = r) (h2 : ∀ i, ∃ r : ℝ, x2 i = r) :
    Cert.ReferenceIdeal.Read.val_main_v37 (F := Ideal) x0 x1 x2 = Cert.KernelIdeal.Whole.result x0 x1 x2 := by
  funext i
  obtain ⟨b, k, rfl⟩ : ∃ (b : Fin 1024) (k : Fin 256), i = ix2 b k := ⟨i 0, i 1, eq_ix2 i⟩
  rw [Cert.ReferenceIdeal.Entry.result_apply]
  exact Cert.RbfLaw.direct_eq_expanded _ _ _ (fun d => h0 _) (fun d => h1 _) (fun d => h2 _)

end Cert.Bridge

end
-- ==== Proof.lean ====
/-
  The certificate of the radial-basis "logits" kernel against its reference.

  The reference computes, for batch row `b` and class `k`, the weighted squared distance
  `Σ d, (x − μ)² · ½σ²` (`σ` the softplus of the raw width) times a 0/1 mask on a quantity formed from the class's
  activation `exp(−Σ d, (x − μ)² / 2σ²)`; with one centre per class that quantity is the activation itself, which is
  positive, so the mask is one. The kernel computes, block by block over a 2 × 4 grid, the expansion
  `Σ x²·½σ² + Σ x·(0 − σ²μ) + Σ 1·(½σ²μμ)` as one contraction over two pieces laid side by side plus a row obtained
  by contracting with ones. For real inputs the two agree entry by entry (Proof/RbfLaw.lean); the precondition says the
  inputs are real (Proof/FiniteInputs.lean). The kernel's blocks tile the result (Proof/KernelArray.lean) and each entry
  of a block is the expansion (Proof/KernelEntry.lean); the reference is read stage by stage (Proof/ReferenceEntry.lean).
  The three frames are the generated ones, the reference's its generated run with the result dropped; the idealized
  kernel is the kernel's own text read on the extended reals, so there is nothing to preserve.
-/
import proofs.«131172_j85272280695302_2_alg».proof.Defs
import proofs.«131172_j85272280695302_2_alg».proof.Proof.Gen.Kernel
import proofs.«131172_j85272280695302_2_alg».proof.Proof.Gen.Kernel.Skeleton
import proofs.«131172_j85272280695302_2_alg».proof.Proof.Gen.Kernel.Launch
import proofs.«131172_j85272280695302_2_alg».proof.Proof.Gen.Kernel.Points
import proofs.«131172_j85272280695302_2_alg».proof.Proof.Gen.Kernel.Frame
import proofs.«131172_j85272280695302_2_alg».proof.Proof.Gen.KernelIdeal
import proofs.«131172_j85272280695302_2_alg».proof.Proof.Gen.KernelIdeal.Skeleton
import proofs.«131172_j85272280695302_2_alg».proof.Proof.Gen.KernelIdeal.Launch
import proofs.«131172_j85272280695302_2_alg».proof.Proof.Gen.KernelIdeal.Points
import proofs.«131172_j85272280695302_2_alg».proof.Proof.Gen.KernelIdeal.Frame
import proofs.«131172_j85272280695302_2_alg».proof.Proof.Gen.KernelIdeal.Value
import proofs.«131172_j85272280695302_2_alg».proof.Proof.Gen.ReferenceIdeal
import proofs.«131172_j85272280695302_2_alg».proof.Proof.Gen.ReferenceIdeal.Run
import proofs.«131172_j85272280695302_2_alg».proof.Proof.Gen.ReferenceIdeal.Read
import proofs.«131172_j85272280695302_2_alg».proof.Proof.Gen.Pre_finite_inputs
import proofs.«131172_j85272280695302_2_alg».proof.Proof.FiniteInputs
import proofs.«131172_j85272280695302_2_alg».proof.Proof.KernelArray
import proofs.«131172_j85272280695302_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten between the two readings of the kernel. -/
theorem preserves : Cert.preserves_Kernel_KernelIdeal := trivial

/-- On the extended reals, from real inputs, the kernel's result array and the reference's are the same function of
    the arguments. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.FiniteInputs.real_of_pre _ _ _ (hpre c)
  rw [Cert.ReferenceIdeal.Read.val_main_v37_eq, (hagree c).1, (hagree c).2.1, (hagree c).2.2]
  exact Cert.Bridge.reference_eq_result _ _ _ h0 h1 h2

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
